-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S500000 : Shape := ⟨1, ![500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S500000x256 .f32) (main_arg1 : IVec S500000 32) (main_arg2 : FVec F S256x128 .f32) (main_arg3 : FVec F S128 .f32) (main_arg4 : FVec F S128x1 .f32) (main_arg5 : FVec F S1 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S500000x256 : Shape := ⟨2, ![500000, 256]⟩
abbrev S500000 : Shape := ⟨1, ![500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S500000x1 : Shape := ⟨2, ![500000, 1]⟩
abbrev S5000x256 : Shape := ⟨2, ![5000, 256]⟩
abbrev S5000x1 : Shape := ⟨2, ![5000, 1]⟩
abbrev S5000x128 : Shape := ⟨2, ![5000, 128]⟩
abbrev S1x128 : Shape := ⟨2, ![1, 128]⟩
abbrev S1x1 : Shape := ⟨2, ![1, 1]⟩
abbrev S_ : Shape := ⟨0, ![]⟩
abbrev S1024 : Shape := ⟨1, ![1024]⟩
abbrev S1024x256 : Shape := ⟨2, ![1024, 256]⟩
abbrev S1024x1 : Shape := ⟨2, ![1024, 1]⟩

abbrev nBuf : Space → Nat
  | .hbm => 51
  | .vmem => 16
  | .smem => 0
  | _ => 0

abbrev bufTy : (tb : Table) → Fin (tcTables nBuf tb) → BufTy
  | .hbm, ⟨0, _⟩ => ⟨S500000x256, .f32⟩
  | .hbm, ⟨1, _⟩ => ⟨S500000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S500000x1, .f32⟩
  | .hbm, ⟨7, _⟩ => ⟨S_, .f32⟩
  | .hbm, ⟨8, _⟩ => ⟨S_, .f32⟩
  | .hbm, ⟨9, _⟩ => ⟨S500000x1, .f32⟩
  | .hbm, ⟨10, _⟩ => ⟨S500000x1, .f32⟩
  | .hbm, ⟨11, _⟩ => ⟨S500000x1, .f32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S1024, .f32⟩
  | .hbm, ⟨16, _⟩ => ⟨S500000x1, .i32⟩
  | .hbm, ⟨17, _⟩ => ⟨S1024, .f32⟩
  | .hbm, ⟨18, _⟩ => ⟨S500000, .f32⟩
  | .hbm, ⟨19, _⟩ => ⟨S_, .f32⟩
  | .hbm, ⟨20, _⟩ => ⟨S1024, .f32⟩
  | .hbm, ⟨21, _⟩ => ⟨S500000x1, .i32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000, .f32⟩
  | .hbm, ⟨36, _⟩ => ⟨S_, .f32⟩
  | .hbm, ⟨37, _⟩ => ⟨S500000, .f32⟩
  | .hbm, ⟨38, _⟩ => ⟨S500000, .f32⟩
  | .hbm, ⟨39, _⟩ => ⟨S500000x1, .f32⟩
  | .hbm, ⟨40, _⟩ => ⟨S500000x256, .f32⟩
  | .hbm, ⟨41, _⟩ => ⟨S_, .f32⟩
  | .hbm, ⟨42, _⟩ => ⟨S1024x256, .f32⟩
  | .hbm, ⟨43, _⟩ => ⟨S500000x1, .i32⟩
  | .hbm, ⟨44, _⟩ => ⟨S1024x256, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024x1, .f32⟩
  | .hbm, ⟨49, _⟩ => ⟨S1024x256, .f32⟩
  | .hbm, ⟨50, _⟩ => ⟨S1024x256, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S128x1, .f32⟩
  | .local _ .vmem, ⟨5, _⟩ => ⟨S1, .f32⟩
  | .local _ .vmem, ⟨6, _⟩ => ⟨S5000x1, .f32⟩
  | .local _ .vmem, ⟨7, _⟩ => ⟨S5000x1, .f32⟩
  | .local _ .vmem, ⟨8, _⟩ => ⟨S5000x256, .f32⟩
  | .local _ .vmem, ⟨9, _⟩ => ⟨S5000x256, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x256, .f32⟩
  | .local _ .vmem, ⟨15, _⟩ => ⟨S5000x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  reducesTo_S500000x1_S_d0_1 : S500000x1.ReducesTo [0, 1] S_
  h_S_ : 0 < S_.numel
  bcast_S_S500000x1 : S_.BroadcastsInDim S500000x1 (![] : Fin 0 → Fin S500000x1.rank)
  bcast_S_S500000 : S_.BroadcastsInDim S500000 (![] : Fin 0 → Fin S500000.rank)
  bcast_S_S1024 : S_.BroadcastsInDim S1024 (![] : Fin 0 → Fin S1024.rank)
  bcast_S500000_S500000x1_0 : S500000.BroadcastsInDim S500000x1 (![0] : Fin 1 → Fin S500000x1.rank)
  shapeCasts_S500000x1_S500000 : S500000x1.ShapeCasts S500000
  shapeCasts_S5000x1_S5000x1 : S5000x1.ShapeCasts S5000x1
  broadcasts_S5000x1_S5000x256 : S5000x1.Broadcasts S5000x256
  bcast_S_S1024x256 : S_.BroadcastsInDim S1024x256 (![] : Fin 0 → Fin S1024x256.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  scatter_S1024_S500000x1_S500000_n_0_0_1_wf : ScatterDims.WF S1024 S500000x1 S500000 [] [0] [0] 1
  gather_S1024_S500000x1_S500000_n_0_n_n_0_1_1_wf : GatherDims.WF S1024 S500000x1 S500000 [] [0] [] [0] [] 1 ![1]
  scatter_S1024x256_S500000x1_S500000x256_1_0_0_1_wf : ScatterDims.WF S1024x256 S500000x1 S500000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S500000x1.size a
  hwx0_5 : ∀ i : grid0.Coords, EltTy.bits .f32 = 32 ∨ (Rect.block (s := S500000x1) S5000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S500000x256.size a
  hwx1_0 : ∀ i : grid1.Coords, EltTy.bits .f32 = 32 ∨ (Rect.block (s := S500000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S500000x1.size a
  hwx1_1 : ∀ i : grid1.Coords, EltTy.bits .f32 = 32 ∨ (Rect.block (s := S500000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S500000x256.size a
  hwx1_3 : ∀ i : grid1.Coords, EltTy.bits .f32 = 32 ∨ (Rect.block (s := S500000x256) S5000x256.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def gather_S1024_S500000x1_S500000_n_0_n_n_0_1_1 : GatherDims S1024 S500000x1 S500000 where
  offsetDims := []
  collapsedSliceDims := [0]
  operandBatchingDims := []
  startIndicesBatchingDims := []
  startIndexMap := [0]
  indexVectorDim := 1
  sliceSizes := ![1]
  wf := gather_S1024_S500000x1_S500000_n_0_n_n_0_1_1_wf
def scatter_S1024x256_S500000x1_S500000x256_1_0_0_1 : ScatterDims S1024x256 S500000x1 S500000x256 where
  updateWindowDims := [1]
  insertedWindowDims := [0]
  scatterDimsToOperandDims := [0]
  indexVectorDim := 1
  wf := scatter_S1024x256_S500000x1_S500000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x256 : Shape := ⟨2, ![500000, 256]⟩
abbrev S500000 : Shape := ⟨1, ![500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S500000x128 : Shape := ⟨2, ![500000, 128]⟩
abbrev S1x128 : Shape := ⟨2, ![1, 128]⟩
abbrev S_ : Shape := ⟨0, ![]⟩
abbrev S500000x1 : Shape := ⟨2, ![500000, 1]⟩
abbrev S1x1 : Shape := ⟨2, ![1, 1]⟩
abbrev S1024x1 : Shape := ⟨2, ![1024, 1]⟩
abbrev S1024 : Shape := ⟨1, ![1024]⟩
abbrev S1024x256 : Shape := ⟨2, ![1024, 256]⟩

abbrev nBuf : Space → Nat
  | .hbm => 72
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S500000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S500000x128, .f32⟩
  | .hbm, ⟨7, _⟩ => ⟨S1x128, .f32⟩
  | .hbm, ⟨8, _⟩ => ⟨S500000x128, .f32⟩
  | .hbm, ⟨9, _⟩ => ⟨S500000x128, .f32⟩
  | .hbm, ⟨10, _⟩ => ⟨S_, .f32⟩
  | .hbm, ⟨11, _⟩ => ⟨S500000x128, .f32⟩
  | .hbm, ⟨12, _⟩ => ⟨S500000x128, .f32⟩
  | .hbm, ⟨13, _⟩ => ⟨S500000x1, .f32⟩
  | .hbm, ⟨14, _⟩ => ⟨S1x1, .f32⟩
  | .hbm, ⟨15, _⟩ => ⟨S500000x1, .f32⟩
  | .hbm, ⟨16, _⟩ => ⟨S500000x1, .f32⟩
  | .hbm, ⟨17, _⟩ => ⟨S_, .f32⟩
  | .hbm, ⟨18, _⟩ => ⟨S_, .f32⟩
  | .hbm, ⟨19, _⟩ => ⟨S500000x1, .f32⟩
  | .hbm, ⟨20, _⟩ => ⟨S500000x1, .f32⟩
  | .hbm, ⟨21, _⟩ => ⟨S500000x1, .f32⟩
  | .hbm, ⟨22, _⟩ => ⟨S_, .f32⟩
  | .hbm, ⟨23, _⟩ => ⟨S1024x1, .f32⟩
  | .hbm, ⟨24, _⟩ => ⟨S500000x1, .i32⟩
  | .hbm, ⟨25, _⟩ => ⟨S1024x1, .f32⟩
  | .hbm, ⟨26, _⟩ => ⟨S_, .f32⟩
  | .hbm, ⟨27, _⟩ => ⟨S500000, .f32⟩
  | .hbm, ⟨28, _⟩ => ⟨S_, .f32⟩
  | .hbm, ⟨29, _⟩ => ⟨S1024, .f32⟩
  | .hbm, ⟨30, _⟩ => ⟨S500000x1, .i32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024x1, .f32⟩
  | .hbm, ⟨36, _⟩ => ⟨S1024x1, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000x1, .f32⟩
  | .hbm, ⟨46, _⟩ => ⟨S_, .f32⟩
  | .hbm, ⟨47, _⟩ => ⟨S500000x1, .f32⟩
  | .hbm, ⟨48, _⟩ => ⟨S500000x1, .f32⟩
  | .hbm, ⟨49, _⟩ => ⟨S500000x256, .f32⟩
  | .hbm, ⟨50, _⟩ => ⟨S500000x256, .f32⟩
  | .hbm, ⟨51, _⟩ => ⟨S_, .f32⟩
  | .hbm, ⟨52, _⟩ => ⟨S500000x1, .f32⟩
  | .hbm, ⟨53, _⟩ => ⟨S500000x1, .f32⟩
  | .hbm, ⟨54, _⟩ => ⟨S500000x256, .f32⟩
  | .hbm, ⟨55, _⟩ => ⟨S500000x256, .f32⟩
  | .hbm, ⟨56, _⟩ => ⟨S_, .f32⟩
  | .hbm, ⟨57, _⟩ => ⟨S1024x256, .f32⟩
  | .hbm, ⟨58, _⟩ => ⟨S500000x1, .i32⟩
  | .hbm, ⟨59, _⟩ => ⟨S1024x256, .f32⟩
  | .hbm, ⟨60, _⟩ => ⟨S_, .f32⟩
  | .hbm, ⟨61, _⟩ => ⟨S500000, .f32⟩
  | .hbm, ⟨62, _⟩ => ⟨S_, .f32⟩
  | .hbm, ⟨63, _⟩ => ⟨S1024, .f32⟩
  | .hbm, ⟨64, _⟩ => ⟨S500000x1, .i32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024x1, .f32⟩
  | .hbm, ⟨70, _⟩ => ⟨S1024x256, .f32⟩
  | .hbm, ⟨71, _⟩ => ⟨S1024x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S_d0_1 : S500000x1.ReducesTo [0, 1] S_
  h_S_ : 0 < S_.numel
  bcast_S_S500000x1 : S_.BroadcastsInDim S500000x1 (![] : Fin 0 → Fin S500000x1.rank)
  bcast_S_S1024x1 : S_.BroadcastsInDim S1024x1 (![] : Fin 0 → Fin S1024x1.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S1024 : S_.BroadcastsInDim S1024 (![] : Fin 0 → Fin S1024.rank)
  bcast_S1024_S1024x1_0 : S1024.BroadcastsInDim S1024x1 (![0] : Fin 1 → Fin S1024x1.rank)
  bcast_S500000x1_S500000x256_0_1 : S500000x1.BroadcastsInDim S500000x256 (![0, 1] : Fin 2 → Fin S500000x256.rank)
  bcast_S_S1024x256 : S_.BroadcastsInDim S1024x256 (![] : Fin 0 → Fin S1024x256.rank)
  bcast_S1024x1_S1024x256_0_1 : S1024x1.BroadcastsInDim S1024x256 (![0, 1] : Fin 2 → Fin S1024x256.rank)
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []
  scatter_S1024x1_S500000x1_S500000x1_1_0_0_1_wf : ScatterDims.WF S1024x1 S500000x1 S500000x1 [1] [0] [0] 1
  scatter_S1024_S500000x1_S500000_n_0_0_1_wf : ScatterDims.WF S1024 S500000x1 S500000 [] [0] [0] 1
  gather_S1024x1_S500000x1_S500000x1_1_0_n_n_0_1_11_wf : GatherDims.WF S1024x1 S500000x1 S500000x1 [1] [0] [] [0] [] 1 ![1, 1]
  scatter_S1024x256_S500000x1_S500000x256_1_0_0_1_wf : ScatterDims.WF S1024x256 S500000x1 S500000x256 [1] [0] [0] 1

variable [Facts₀]

def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S1024x1_S500000x1_S500000x1_1_0_0_1 : ScatterDims S1024x1 S500000x1 S500000x1 where
  updateWindowDims := [1]
  insertedWindowDims := [0]
  scatterDimsToOperandDims := [0]
  indexVectorDim := 1
  wf := scatter_S1024x1_S500000x1_S500000x1_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def gather_S1024x1_S500000x1_S500000x1_1_0_n_n_0_1_11 : GatherDims S1024x1 S500000x1 S500000x1 where
  offsetDims := [1]
  collapsedSliceDims := [0]
  operandBatchingDims := []
  startIndicesBatchingDims := []
  startIndexMap := [0]
  indexVectorDim := 1
  sliceSizes := ![1, 1]
  wf := gather_S1024x1_S500000x1_S500000x1_1_0_n_n_0_1_11_wf
def scatter_S1024x256_S500000x1_S500000x256_1_0_0_1 : ScatterDims S1024x256 S500000x1 S500000x256 where
  updateWindowDims := [1]
  insertedWindowDims := [0]
  scatterDimsToOperandDims := [0]
  indexVectorDim := 1
  wf := scatter_S1024x256_S500000x1_S500000x256_1_0_0_1_wf

class Facts : Prop extends Facts₀ where

variable [Facts]
-- ==== Proof.KRun.lean ====
/-
  The idealized kernel program, run from any launch memory: every weakly fair execution of @main ends, without a
  fault, with the result array `main_v34` holding the last segment boundary's contents (the fold of the two host
  stretches and the two regions' write-backs through @main, `Gen.W4`) and with the six argument arrays as launched.
  This is the frame run with one more buffer read off the final state: the thread state after the last host stretch
  holds EVERY unscoped buffer at `Gen.W4`, the result's among them.
-/
import proofs.«143662_j75952201662547_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result named: `main_v34` ends at the last boundary's contents, the arguments as launched. -/
theorem run_result : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KRun

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.Region0.lean ====
/-
  The first kernel region (the two-layer attention scorer), as one function of the arrays it finds.

  At grid point `t` the body loads rows `5000 t … 5000 t + 4999` of `x` and the whole of `W1`, `b1`, `W2`, `b2`, and
  stores for row `p` of its block the logit `∑ₖ max (∑ⱼ x (p, j) · W1 (j, k) + b1 k) 0 · W2 (k, 0) + b2 0`: two matrix
  products into zero accumulators (at the exact extended reals the rounding to a narrower float on the way in is the
  identity), a bias row repeated down the rows, a maximum with the zero literal. Every block is a block of ONE
  whole-array function (`logits`), and the hundred blocks tile the 500000 rows.
-/
import proofs.«143662_j75952201662547_1_alg».proof.Proof.Gen.KernelIdeal.Frame
import proofs.«143662_j75952201662547_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Logits

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The logit of row `r`: the hidden layer `max (x r · W1 + b1) 0` against the column `W2`, plus `b2`. -/
def logitAt (x : (⟨2, ![500000, 256]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (r : Fin 500000) : EReal :=
  (∑ k : Fin 128, max ((∑ j : Fin 256, x (ix2 r j) * w1 (ix2 j k)) + b1 (ix1 k)) (Ideal.ofBits .f32 0x00000000#32)
      * w2 (ix2 k (0 : Fin 1))) + b2 (ix1 (0 : Fin 1))

/-- The column of logits as a function of the whole arrays. -/
def logits (x : (⟨2, ![500000, 256]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨2, ![500000, 1]⟩ : Shape).Idx → EReal :=
  fun i => logitAt x w1 b1 w2 b2 ⟨(i 0).val, idx2_lt0 i⟩

/-- The hidden layer's entry `(p, k)` in the body: the first product, the bias row, the maximum with zero. -/
theorem hidden_at (x0 : Vec Ideal S5000x256 .f32) (x1 : Vec Ideal S256x128 .f32) (x2 : Vec Ideal S128 .f32)
    (p : Fin 5000) (k : Fin 128) :
    (maximumf (addf (matmul dot_S5000x256_S256x128_S5000x128_1_0_0_1_n_n none
          (truncf (F := Ideal) .bf16 x0 bitsLt_bf16_f32) (truncf (F := Ideal) .bf16 x1 bitsLt_bf16_f32)
          (constant (F := Ideal) S5000x128 .f32 0x00000000#32))
        (broadcastTo S5000x128 (shapeCast S1x128 x2 shapeCasts_S128_S1x128) broadcasts_S1x128_S5000x128))
      (broadcast S5000x128 (Scalar.ofBits (F := Ideal) .f32 0x00000000#32))) (ix2 p k)
      = max ((∑ j : Fin 256, x0 (ix2 p j) * x1 (ix2 j k)) + x2 (ix1 k)) (Ideal.ofBits .f32 0x00000000#32) := by
  show max ((matmul dot_S5000x256_S256x128_S5000x128_1_0_0_1_n_n none _ _ (constant (F := Ideal) S5000x128 .f32 0x00000000#32)) (ix2 p k)
      + (broadcastTo S5000x128 (shapeCast S1x128 x2 shapeCasts_S128_S1x128) broadcasts_S1x128_S5000x128) (ix2 p k)) _ = _
  rw [Cert.SE.Lib.matmul_plain_apply (M := 5000) (K := 256) (N := 128) dot_S5000x256_S256x128_S5000x128_1_0_0_1_n_n
      rfl rfl rfl rfl rfl rfl none _ _ p k,
    broadcastTo_1b_ab_apply, shapeCast_a_1a_apply]
  rfl

/-- The body's stored value at row `p` of its block, from the five loaded blocks. -/
theorem pay_at (x0 : Vec Ideal S5000x256 .f32) (x1 : Vec Ideal S256x128 .f32) (x2 : Vec Ideal S128 .f32)
    (x3 : Vec Ideal S128x1 .f32) (x4 : Vec Ideal S1 .f32) (p : Fin 5000) :
    k0_pay1 (F := Ideal) x0 x1 x2 x3 x4 (ix2 p (0 : Fin 1))
      = (∑ k : Fin 128, max ((∑ j : Fin 256, x0 (ix2 p j) * x1 (ix2 j k)) + x2 (ix1 k)) (Ideal.ofBits .f32 0x00000000#32)
          * x3 (ix2 k (0 : Fin 1))) + x4 (ix1 (0 : Fin 1)) := by
  unfold k0_pay1
  show (matmul dot_S5000x128_S128x1_S5000x1_1_0_0_1_n_n none _ _ (constant (F := Ideal) S5000x1 .f32 0x00000000#32)) (ix2 p (0 : Fin 1))
      + (broadcastTo S5000x1 (shapeCast S1x1 x4 shapeCasts_S1_S1x1) broadcasts_S1x1_S5000x1) (ix2 p (0 : Fin 1)) = _
  rw [Cert.SE.Lib.matmul_plain_apply (M := 5000) (K := 128) (N := 1) dot_S5000x128_S128x1_S5000x1_1_0_0_1_n_n
      rfl rfl rfl rfl rfl rfl none _ _ p (0 : Fin 1),
    broadcastTo_1b_ab_apply, shapeCast_a_1a_apply]
  refine congrArg (· + x4 (ix1 (0 : Fin 1))) (Finset.sum_congr rfl fun k _ => ?_)
  exact congrArg (· * x3 (ix2 k (0 : Fin 1))) (hidden_at x0 x1 x2 p k)

/-! ## From the blocks to the array -/

theorem hz2 : (![0, 0] : Fin 2 → Nat) = fun _ => 0 := funext fun a => by fin_cases a <;> rfl
theorem hz1 : (![0] : Fin 1 → Nat) = fun _ => 0 := funext fun a => by fin_cases a; rfl

/-- The windows' block indices at grid point `t`: the row blocks of `x` and of the output move with `t`, the weights and
    biases are one block each. -/
theorem idx_rows : ∀ t : Fin cfg0.N, win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

theorem idx_whole : ∀ t : Fin cfg0.N, win0_1.index t = ![0, 0] ∧ win0_2.index t = ![0] ∧ win0_3.index t = ![0, 0]
    ∧ win0_4.index t = ![0] :=
  (by decide +kernel : ∀ t : Fin grid0.N, _)

variable (V : (c : Dev nD) → (b : Ref sig .tc) → Buf (Elt Ideal) ((c : Thread nD τ).loc b))

set_option backward.isDefEq.respectTransparency.types false in
/-- What grid point `t` writes back is block `t` of `logits` of the arrays as the region finds them. -/
theorem flushed_eq (c : Dev nD) (t : Fin cfg0.N) :
    (dat0 V c).flushed 5 t
      = ((cfg0.win 5).blk t).view.read (Elt Ideal)
          (logits (V c main_arg0) (V c main_arg2) (V c main_arg3) (V c main_arg4) (V c main_arg5)) := by
  show (cfg0.win 5).cut (grid0.coords t) ((dat0 V c).after 5 t) = _
  rw [after0_5]
  unfold out0_5
  rw [View.canon_unit_zero hz2]
  simp only [View.ld_unit_zero (S := S5000x256) hz2, View.ld_unit_zero (S := S256x128) hz2,
    View.ld_unit_zero (S := S128x1) hz2, View.ld_unit_zero (S := S128) hz1, View.ld_unit_zero (S := S1) hz1]
  obtain ⟨e0, e1, e8, e9⟩ := idx_rows t
  obtain ⟨w1, w2, w3, w4⟩ := idx_whole t
  have e2 : win0_1.index t (0 : Fin 2) = 0 := congrFun w1 0
  have e3 : win0_1.index t (1 : Fin 2) = 0 := congrFun w1 1
  have e4 : win0_2.index t (0 : Fin 1) = 0 := congrFun w2 0
  have e5 : win0_3.index t (0 : Fin 2) = 0 := congrFun w3 0
  have e6 : win0_3.index t (1 : Fin 2) = 0 := congrFun w3 1
  have e7 : win0_4.index t (0 : Fin 1) = 0 := congrFun w4 0
  funext j
  obtain ⟨p, u, rfl⟩ : ∃ (p : Fin 5000) (u : Fin 1), j = ix2 p u := ⟨j 0, j 1, eq_ix2 j⟩
  obtain rfl : u = 0 := Subsingleton.elim _ _
  refine (pay_at (iblk0 V c 0 t) (iblk0 V c 1 t) (iblk0 V c 2 t) (iblk0 V c 3 t) (iblk0 V c 4 t) p).trans ?_
  have hp : p.val < 5000 := p.isLt
  have hX : ∀ jj : Fin 256, ((cfg0.win 0).blk t).view.emb (ix2 p jj)
      = ix2 (⟨(((cfg0.win 5).blk t).view.emb (ix2 p (0 : Fin 1)) 0).val, idx2_lt0 _⟩ : Fin 500000) jj := by
    intro jj
    have hjj : jj.val < 256 := jj.isLt
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 256 + 1 * jj.val = jj.val; omega
  have hW1 : ∀ (jj : Fin 256) (k : Fin 128), ((cfg0.win 1).blk t).view.emb (ix2 jj k) = ix2 jj k := by
    intro jj k
    funext a; apply Fin.ext
    match a with
    | ⟨0, _⟩ => show win0_1.index t (0 : Fin 2) * 256 + 1 * jj.val = jj.val; omega
    | ⟨1, _⟩ => show win0_1.index t (1 : Fin 2) * 128 + 1 * k.val = k.val; omega
  have hB1 : ∀ k : Fin 128, ((cfg0.win 2).blk t).view.emb (ix1 k) = ix1 k := by
    intro k
    funext a; apply Fin.ext
    match a with
    | ⟨0, _⟩ => show win0_2.index t (0 : Fin 1) * 128 + 1 * k.val = k.val; omega
  have hW2 : ∀ k : Fin 128, ((cfg0.win 3).blk t).view.emb (ix2 k (0 : Fin 1)) = ix2 k (0 : Fin 1) := by
    intro k
    funext a; apply Fin.ext
    match a with
    | ⟨0, _⟩ => show win0_3.index t (0 : Fin 2) * 128 + 1 * k.val = k.val; omega
    | ⟨1, _⟩ => show win0_3.index t (1 : Fin 2) * 1 + 1 * 0 = 0; omega
  have hB2 : ((cfg0.win 4).blk t).view.emb (ix1 (0 : Fin 1)) = ix1 (0 : Fin 1) := by
    funext a; apply Fin.ext
    match a with
    | ⟨0, _⟩ => show win0_4.index t (0 : Fin 1) * 1 + 1 * 0 = 0; omega
  have hX' : ∀ jj : Fin 256, iblk0 V c 0 t (ix2 p jj)
      = V c main_arg0 (ix2 (⟨(((cfg0.win 5).blk t).view.emb (ix2 p (0 : Fin 1)) 0).val, idx2_lt0 _⟩ : Fin 500000) jj) :=
    fun jj => congrArg (V c main_arg0) (hX jj)
  have hW1' : ∀ (jj : Fin 256) (k : Fin 128), iblk0 V c 1 t (ix2 jj k) = V c main_arg2 (ix2 jj k) :=
    fun jj k => congrArg (V c main_arg2) (hW1 jj k)
  have hB1' : ∀ k : Fin 128, iblk0 V c 2 t (ix1 k) = V c main_arg3 (ix1 k) := fun k => congrArg (V c main_arg3) (hB1 k)
  have hW2' : ∀ k : Fin 128, iblk0 V c 3 t (ix2 k (0 : Fin 1)) = V c main_arg4 (ix2 k (0 : Fin 1)) :=
    fun k => congrArg (V c main_arg4) (hW2 k)
  have hB2' : iblk0 V c 4 t (ix1 (0 : Fin 1)) = V c main_arg5 (ix1 (0 : Fin 1)) := congrArg (V c main_arg5) hB2
  simp only [hX', hW1', hB1', hW2', hB2']
  rfl

/-- An index of the array is in point `t`'s block iff each coordinate is in the block's range on its axis. -/
theorem mem_blk (t : Fin cfg0.N) (i : (⟨2, ![500000, 1]⟩ : Shape).Idx) :
    i ∈ ((cfg0.win 5).blk t).view.set ↔ ∀ a : Fin 2, win0_5.index t a * S5000x1.size a ≤ (i a).val
      ∧ (i a).val < win0_5.index t a * S5000x1.size a + S5000x1.size a := by
  show i ∈ ((View.whole main_v0).slice (win0_5.rect t)).set ↔ _
  rw [View.set_slice_whole, Rect.mem_set_unit]
  exact Iff.rfl

/-- Row `r` lies in the block of grid point `r / 5000`: the hundred blocks tile the column. -/
theorem cover (i : (⟨2, ![500000, 1]⟩ : Shape).Idx) :
    ∃ t : Fin cfg0.N, (cfg0.win 5).flush t = true ∧ i ∈ ((cfg0.win 5).blk t).view.set := by
  have hi0 : (i 0).val < 500000 := (i 0).isLt
  have hi1 : (i 1).val < 1 := (i 1).isLt
  have hN : grid0.N = 100 := N_0
  let t : Fin cfg0.N := ⟨(i 0).val / 5000, by show (i 0).val / 5000 < grid0.N; omega⟩
  obtain ⟨e0, e1, e8, e9⟩ := idx_rows t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 1 ≤ (i 1).val ∧ (i 1).val < win0_5.index t (1 : Fin 2) * 1 + 1; omega

/-- After the region the output column is `logits` of the arrays the region found. -/
theorem final (c : Dev nD) :
    (dat0 V c).arrAt 5 cfg0.N
      = logits (V c main_arg0) (V c main_arg2) (V c main_arg3) (V c main_arg4) (V c main_arg5) :=
  (dat0 V c).arrAt_eq_of_cover 5 _ (fun t _ => flushed_eq V c t) cover

end Cert.KernelIdeal.Logits

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Region1.lean ====
/-
  The second kernel region (the elementwise re-weighting), as one function of the arrays it finds.

  At grid point `t` the body loads rows `5000 t … 5000 t + 4999` of the matrix `x` and of the two columns `e`, `d`,
  and stores, at row `p` and column `q` of its block, `(e p · x (p, q)) / (d p + ε)`: the column entries are repeated
  along the 256 columns, `ε` is one binary32 literal. Every block is a block of ONE whole-array function
  (`reweigh`), the hundred blocks tile the 500000 rows, so after the region the output array IS that function.
-/
import proofs.«143662_j75952201662547_1_alg».proof.Proof.Gen.KernelIdeal.Frame
import proofs.«143662_j75952201662547_1_alg».proof.Proof.LibKeepdims
import Idealize.ShloMosaic.Lib.Pipeline.Value
import Idealize.ShloMosaic.Lib.ValueIdx

set_option maxRecDepth 16384

noncomputable section

namespace Cert.KernelIdeal.Reweigh

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- Entry `(r, q)` of the re-weighted matrix: `(e r · x (r, q)) / (d r + ε)`. -/
def reweighAt (x : (⟨2, ![500000, 256]⟩ : Shape).Idx → EReal) (e d : (⟨2, ![500000, 1]⟩ : Shape).Idx → EReal)
    (r : Fin 500000) (q : Fin 256) : EReal :=
  Ideal.div (e (ix2 r (0 : Fin 1)) * x (ix2 r q)) (d (ix2 r (0 : Fin 1)) + Ideal.ofBits .f32 0x322BCC77#32)

/-- The re-weighted matrix as a function of the whole arrays. -/
def reweigh (x : (⟨2, ![500000, 256]⟩ : Shape).Idx → EReal) (e d : (⟨2, ![500000, 1]⟩ : Shape).Idx → EReal) :
    (⟨2, ![500000, 256]⟩ : Shape).Idx → EReal :=
  fun i => reweighAt x e d ⟨(i 0).val, idx2_lt0 i⟩ ⟨(i 1).val, idx2_lt1 i⟩

theorem reweigh_ix2 (x : (⟨2, ![500000, 256]⟩ : Shape).Idx → EReal) (e d : (⟨2, ![500000, 1]⟩ : Shape).Idx → EReal)
    (r : Fin 500000) (q : Fin 256) : reweigh x e d (ix2 r q) = reweighAt x e d r q := rfl

/-- The body's stored value at `(p, q)` of its block, from the three loaded blocks. -/
theorem pay_at (x0 : Vec Ideal S5000x256 .f32) (x1 : Vec Ideal S5000x1 .f32) (x3 : Vec Ideal S5000x1 .f32)
    (p : Fin 5000) (q : Fin 256) :
    k1_pay1 (F := Ideal) x0 x1 x3 (ix2 p q)
      = Ideal.div (x1 (ix2 p (0 : Fin 1)) * x0 (ix2 p q)) (x3 (ix2 p (0 : Fin 1)) + Ideal.ofBits .f32 0x322BCC77#32) := by
  have h5 : (broadcastTo S5000x256 (shapeCast S5000x1 x1 shapeCasts_S5000x1_S5000x1) broadcasts_S5000x1_S5000x256) (ix2 p q)
      = x1 (ix2 p (0 : Fin 1)) := by
    rw [Cert.Lib.broadcastTo_a1_ab_apply, shapeCast_self]
  have h9 : (broadcastTo S5000x256 (addf (F := Ideal) (shapeCast S5000x1 x3 shapeCasts_S5000x1_S5000x1)
        (broadcast S5000x1 (Scalar.ofBits (F := Ideal) .f32 0x322BCC77#32))) broadcasts_S5000x1_S5000x256) (ix2 p q)
      = x3 (ix2 p (0 : Fin 1)) + Ideal.ofBits .f32 0x322BCC77#32 := by
    rw [Cert.Lib.broadcastTo_a1_ab_apply, shapeCast_self]
    rfl
  unfold k1_pay1
  exact congr (congrArg Ideal.div (congrArg (· * x0 (ix2 p q)) h5)) h9

/-! ## From the blocks to the array -/

theorem hz2 : (![0, 0] : Fin 2 → Nat) = fun _ => 0 := funext fun a => by fin_cases a <;> rfl

/-- The four windows' block indices at grid point `t`: block row `t`, block column `0`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

set_option backward.isDefEq.respectTransparency.types false in
/-- What grid point `t` writes back is block `t` of `reweigh` of the arrays as the region finds them. -/
theorem flushed_eq (c : Dev nD) (t : Fin cfg1.N) :
    (dat1 V c).flushed 3 t
      = ((cfg1.win 3).blk t).view.read (Elt Ideal) (reweigh (V c main_arg0) (V c main_v4) (V c main_v25)) := by
  show (cfg1.win 3).cut (grid1.coords t) ((dat1 V c).after 3 t) = _
  rw [after1_3]
  unfold out1_3
  rw [View.canon_unit_zero hz2]
  simp only [View.ld_unit_zero (S := S5000x256) hz2, View.ld_unit_zero (S := S5000x1) hz2]
  obtain ⟨e0, e1, e2, e3, e4, e5, e6, e7⟩ := idx_facts t
  funext j
  obtain ⟨p, q, rfl⟩ : ∃ (p : Fin 5000) (q : Fin 256), j = ix2 p q := ⟨j 0, j 1, eq_ix2 j⟩
  refine (pay_at (iblk1 V c 0 t) (iblk1 V c 1 t) (iblk1 V c 2 t) p q).trans ?_
  have hp : p.val < 5000 := p.isLt
  have hq : q.val < 256 := q.isLt
  have hE : ((cfg1.win 1).blk t).view.emb (ix2 p (0 : Fin 1))
      = ix2 (⟨(((cfg1.win 3).blk t).view.emb (ix2 p q) 0).val, idx2_lt0 _⟩ : Fin 500000) (0 : Fin 1) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have hD : ((cfg1.win 2).blk t).view.emb (ix2 p (0 : Fin 1))
      = ix2 (⟨(((cfg1.win 3).blk t).view.emb (ix2 p q) 0).val, idx2_lt0 _⟩ : Fin 500000) (0 : Fin 1) := by
    funext a; apply Fin.ext
    match a with
    | ⟨0, _⟩ => show win1_2.index t (0 : Fin 2) * 5000 + 1 * p.val = win1_3.index t (0 : Fin 2) * 5000 + 1 * p.val; omega
    | ⟨1, _⟩ => show win1_2.index t (1 : Fin 2) * 1 + 1 * 0 = 0; omega
  have hX : ((cfg1.win 0).blk t).view.emb (ix2 p q)
      = ix2 (⟨(((cfg1.win 3).blk t).view.emb (ix2 p q) 0).val, idx2_lt0 _⟩ : Fin 500000)
          (⟨(((cfg1.win 3).blk t).view.emb (ix2 p q) 1).val, idx2_lt1 _⟩ : Fin 256) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 256 + 1 * q.val = win1_3.index t (1 : Fin 2) * 256 + 1 * q.val; omega
  have h1 : iblk1 V c 1 t (ix2 p (0 : Fin 1)) = V c main_v4 (ix2 (⟨(((cfg1.win 3).blk t).view.emb (ix2 p q) 0).val, idx2_lt0 _⟩ : Fin 500000) (0 : Fin 1)) :=
    congrArg (V c main_v4) hE
  have h2 : iblk1 V c 2 t (ix2 p (0 : Fin 1)) = V c main_v25 (ix2 (⟨(((cfg1.win 3).blk t).view.emb (ix2 p q) 0).val, idx2_lt0 _⟩ : Fin 500000) (0 : Fin 1)) :=
    congrArg (V c main_v25) hD
  have h0 : iblk1 V c 0 t (ix2 p q) = V c main_arg0 (ix2 (⟨(((cfg1.win 3).blk t).view.emb (ix2 p q) 0).val, idx2_lt0 _⟩ : Fin 500000)
          (⟨(((cfg1.win 3).blk t).view.emb (ix2 p q) 1).val, idx2_lt1 _⟩ : Fin 256)) :=
    congrArg (V c main_arg0) hX
  rw [h1, h2, h0]
  rfl

/-- An index of the array is in point `t`'s block iff each coordinate is in the block's range on its axis. -/
theorem mem_blk (t : Fin cfg1.N) (i : (⟨2, ![500000, 256]⟩ : Shape).Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v26).slice (win1_3.rect t)).set ↔ _
  rw [View.set_slice_whole, Rect.mem_set_unit]
  exact Iff.rfl

/-- Row `r` lies in the block of grid point `r / 5000`: the hundred blocks tile the array. -/
theorem cover (i : (⟨2, ![500000, 256]⟩ : Shape).Idx) :
    ∃ t : Fin cfg1.N, (cfg1.win 3).flush t = true ∧ i ∈ ((cfg1.win 3).blk t).view.set := by
  have hi0 : (i 0).val < 500000 := (i 0).isLt
  have hi1 : (i 1).val < 256 := (i 1).isLt
  have hN : grid1.N = 100 := N_1
  let t : Fin cfg1.N := ⟨(i 0).val / 5000, by show (i 0).val / 5000 < grid1.N; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- After the region the output array is `reweigh` of the arrays the region found. -/
theorem final (c : Dev nD) :
    (dat1 V c).arrAt 3 cfg1.N = reweigh (V c main_arg0) (V c main_v4) (V c main_v25) :=
  (dat1 V c).arrAt_eq_of_cover 3 _ (fun t _ => flushed_eq V c t) cover

end Cert.KernelIdeal.Reweigh

end
-- ==== Proof.Pooling.lean ====
/-
  The host side of the attention pooling, as functions of whole arrays (the same operations in both programs).

  From the column of logits `L`: the weights `e = exp (L − max L)` (the maximum over all rows, from −∞). From the segment
  ids `I`: the segment sizes `counts I` (ones accumulated per segment); the normaliser of row `r`, `denom e I` —
  the mean weight of the row's segment (weights accumulated per segment over `max (count, 1)`, read back at the row's
  id, a negative id counted from the end and the read clamped into range) times 500000 —; and, for a matrix `Y`,
  `pooled Y I`: the rows of `Y` accumulated per segment over `max (count, 1)`. The whole result is `pooled` of the
  re-weighted matrix.
-/
import proofs.«143662_j75952201662547_1_alg».proof.Proof.Region0
import proofs.«143662_j75952201662547_1_alg».proof.Proof.Region1

set_option maxRecDepth 16384

noncomputable section

namespace Cert.KernelIdeal.Pooling

open Idealize.ShloMosaic Idealize.ShloMosaic.TcCoe Idealize.ShloMosaic.ValueIdx
open Cert.KernelIdeal Cert.KernelIdeal.Gen

/-- The weights: `exp` of the logits shifted by their maximum over all rows. -/
def weights (L : FVec Ideal S500000x1 .f32) : FVec Ideal S500000x1 .f32 :=
  Host.exp (subf L (broadcastInDim S500000x1 ![] bcast_S_S500000x1
    (Host.reduce FloatOps.maximumf L (constant (F := Ideal) S_ .f32 0xFF800000#32) reducesTo_S500000x1_S_d0_1 h_S_)))

/-- The segment sizes: a one accumulated at every row's segment id. -/
def counts (I : IVec S500000 32) : FVec Ideal S1024 .f32 :=
  Host.scatterAdd scatter_S1024_S500000x1_S500000_n_0_0_1
    (broadcastInDim S1024 ![] bcast_S_S1024 (constant (F := Ideal) S_ .f32 0x00000000#32))
    (broadcastInDim S500000x1 ![0] bcast_S500000_S500000x1_0 I)
    (broadcastInDim S500000 ![] bcast_S_S500000 (constant (F := Ideal) S_ .f32 0x3F800000#32))

/-- The ids a read-back uses: a negative id counted from the end, as a column. -/
def readIdx (I : IVec S500000 32) : IVec S500000x1 32 :=
  broadcastInDim S500000x1 ![0] bcast_S500000_S500000x1_0
    (select (cmpi CmpIPredicate.slt I (broadcastInDim S500000 ![] bcast_S_S500000 (constantI S_ 32 0#32)))
      (addi I (broadcastInDim S500000 ![] bcast_S_S500000 (constantI S_ 32 1024#32))) I)

/-- The mean weight per segment, in the flat layout: the weights accumulated per segment over `max (count, 1)`. -/
def meanFlat (E : FVec Ideal S500000x1 .f32) (I : IVec S500000 32) : FVec Ideal S1024 .f32 :=
  Host.divf
    (Host.scatterAdd scatter_S1024_S500000x1_S500000_n_0_0_1
      (broadcastInDim S1024 ![] bcast_S_S1024 (constant (F := Ideal) S_ .f32 0x00000000#32))
      (broadcastInDim S500000x1 ![0] bcast_S500000_S500000x1_0 I)
      (shapeCast S500000 E shapeCasts_S500000x1_S500000))
    (maximumf (counts I) (broadcastInDim S1024 ![] bcast_S_S1024 (constant (F := Ideal) S_ .f32 0x3F800000#32)))

/-- The normaliser column: the row's segment mean times 500000. -/
def denom (E : FVec Ideal S500000x1 .f32) (I : IVec S500000 32) : FVec Ideal S500000x1 .f32 :=
  broadcastInDim S500000x1 ![0] bcast_S500000_S500000x1_0
    (mulf (Host.gather gather_S1024_S500000x1_S500000_n_0_n_n_0_1_1 (meanFlat E I) (readIdx I))
      (broadcastInDim S500000 ![] bcast_S_S500000 (constant (F := Ideal) S_ .f32 0x48F42400#32)))

/-- The rows of `Y` accumulated per segment, over `max (count, 1)`. -/
def pooled (Y : FVec Ideal S500000x256 .f32) (I : IVec S500000 32) : FVec Ideal S1024x256 .f32 :=
  Host.divf
    (Host.scatterAdd scatter_S1024x256_S500000x1_S500000x256_1_0_0_1
      (broadcastInDim S1024x256 ![] bcast_S_S1024x256 (constant (F := Ideal) S_ .f32 0x00000000#32))
      (broadcastInDim S500000x1 ![0] bcast_S500000_S500000x1_0 I) Y)
    (broadcastInDim S1024x256 ![0, 1] bcast_S1024x1_S1024x256_0_1
      (broadcastInDim S1024x1 ![0] bcast_S1024_S1024x1_0
        (maximumf (counts I) (broadcastInDim S1024 ![] bcast_S_S1024 (constant (F := Ideal) S_ .f32 0x3F800000#32)))))

/-- The whole computation: the pooled re-weighted matrix, from the six arguments. -/
def result (x : FVec Ideal S500000x256 .f32) (I : IVec S500000 32) (w1 : FVec Ideal S256x128 .f32)
    (b1 : FVec Ideal S128 .f32) (w2 : FVec Ideal S128x1 .f32) (b2 : FVec Ideal S1 .f32) : FVec Ideal S1024x256 .f32 :=
  pooled (Reweigh.reweigh x (weights (Logits.logits x w1 b1 w2 b2))
    (denom (weights (Logits.logits x w1 b1 w2 b2)) I)) I

end Cert.KernelIdeal.Pooling

end
-- ==== Proof.KValue.lean ====
/-
  What the idealized kernel program leaves in its result array, as one function of the six arguments.

  The last boundary's contents are a fold through @main: the first region writes the logits column
  (`Logits.final`), the host stretch between the regions computes from it the weights and the normaliser column
  (`Pooling.weights`, `Pooling.denom`) and the segment sizes, the second region writes the re-weighted matrix
  (`Reweigh.final`), and the last host stretch pools it (`Pooling.pooled`). The arguments are read through the fold
  unchanged: no host operation and no region writes one.
-/
import proofs.«143662_j75952201662547_1_alg».proof.Proof.Pooling
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Pooling

variable (m : (ℓ : Loc nD τ sig) → Buf (Elt Ideal) ℓ) (ρ : Dev nD → PrngReg)

/-! ## After the first region -/

/-- The segment ids are as launched (no window of the first region is on them). -/
theorem W1_ids (c : Dev nD) : W1 m ρ c (Proc.devRef .tc main_arg1) = m ((c : Thread nD τ).loc main_arg1) :=
  W1_of_ne m ρ c main_arg1 (by decide)

/-- The matrix `x` is as launched (an input window's array is left as found). -/
theorem W1_x (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The first region's output is the logits column of the arguments. -/
theorem W1_logits (c : Dev nD) : W1 m ρ c (Proc.devRef .tc main_v0)
    = Logits.logits (m ((c : Thread nD τ).loc main_arg0)) (m ((c : Thread nD τ).loc main_arg2))
        (m ((c : Thread nD τ).loc main_arg3)) (m ((c : Thread nD τ).loc main_arg4)) (m ((c : Thread nD τ).loc main_arg5)) :=
  (W1_arr m ρ c 5).trans (Logits.final (V0 m ρ) c)

/-! ## After the host stretch between the regions -/

theorem W2_ids (c : Dev nD) : W2 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_ids m ρ c)

theorem W2_x (c : Dev nD) : W2 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_x m ρ c)

/-- The weights column. -/
theorem W2_weights (c : Dev nD) : W2 m ρ c (Proc.devRef .tc main_v4)
    = weights (Logits.logits (m ((c : Thread nD τ).loc main_arg0)) (m ((c : Thread nD τ).loc main_arg2))
        (m ((c : Thread nD τ).loc main_arg3)) (m ((c : Thread nD τ).loc main_arg4)) (m ((c : Thread nD τ).loc main_arg5))) := by
  show StableHlo.after hostOps1 (W1 m ρ c) (Proc.devRef .tc main_v4) = _
  after_results_simp
  rw [W1_logits m ρ c]
  rfl

/-- The segment sizes. -/
theorem W2_counts (c : Dev nD) : W2 m ρ c (Proc.devRef .tc main_v8) = counts (m ((c : Thread nD τ).loc main_arg1)) := by
  show StableHlo.after hostOps1 (W1 m ρ c) (Proc.devRef .tc main_v8) = _
  after_results_simp
  rw [W1_ids m ρ c]
  rfl

/-- The normaliser column. -/
theorem W2_denom (c : Dev nD) : W2 m ρ c (Proc.devRef .tc main_v25)
    = denom (weights (Logits.logits (m ((c : Thread nD τ).loc main_arg0)) (m ((c : Thread nD τ).loc main_arg2))
        (m ((c : Thread nD τ).loc main_arg3)) (m ((c : Thread nD τ).loc main_arg4)) (m ((c : Thread nD τ).loc main_arg5))))
        (m ((c : Thread nD τ).loc main_arg1)) := by
  show StableHlo.after hostOps1 (W1 m ρ c) (Proc.devRef .tc main_v25) = _
  after_results_simp
  rw [W1_logits m ρ c, W1_ids m ρ c]
  rfl

/-! ## After the second region -/

theorem W3_ids (c : Dev nD) : W3 m ρ c (Proc.devRef .tc main_arg1) = m ((c : Thread nD τ).loc main_arg1) :=
  (W3_of_ne m ρ c main_arg1 (by decide)).trans (W2_ids m ρ c)

theorem W3_counts (c : Dev nD) : W3 m ρ c (Proc.devRef .tc main_v8) = counts (m ((c : Thread nD τ).loc main_arg1)) :=
  (W3_of_ne m ρ c main_v8 (by decide)).trans (W2_counts m ρ c)

/-- The second region's output is the re-weighted matrix. -/
theorem W3_reweighed (c : Dev nD) : W3 m ρ c (Proc.devRef .tc main_v26)
    = Reweigh.reweigh (m ((c : Thread nD τ).loc main_arg0))
        (weights (Logits.logits (m ((c : Thread nD τ).loc main_arg0)) (m ((c : Thread nD τ).loc main_arg2))
          (m ((c : Thread nD τ).loc main_arg3)) (m ((c : Thread nD τ).loc main_arg4)) (m ((c : Thread nD τ).loc main_arg5))))
        (denom (weights (Logits.logits (m ((c : Thread nD τ).loc main_arg0)) (m ((c : Thread nD τ).loc main_arg2))
          (m ((c : Thread nD τ).loc main_arg3)) (m ((c : Thread nD τ).loc main_arg4)) (m ((c : Thread nD τ).loc main_arg5))))
          (m ((c : Thread nD τ).loc main_arg1))) := by
  refine ((W3_arr m ρ c 3).trans (Reweigh.final (V2 m ρ) c)).trans ?_
  show Reweigh.reweigh (W2 m ρ c (Proc.devRef .tc main_arg0)) (W2 m ρ c (Proc.devRef .tc main_v4))
      (W2 m ρ c (Proc.devRef .tc main_v25)) = _
  rw [W2_x m ρ c, W2_weights m ρ c, W2_denom m ρ c]

/-! ## The result -/

/-- THE KERNEL PROGRAM'S RESULT: `Pooling.result` of the six arguments. -/
theorem result_eq (c : Dev nD) : W4 m ρ c (Proc.devRef .tc main_v34)
    = result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  show StableHlo.after hostOps2 (W3 m ρ c) (Proc.devRef .tc main_v34) = _
  after_results
  rw [W3_reweighed m ρ c, W3_counts m ρ c, W3_ids m ρ c]
  rfl

end Cert.KernelIdeal.KValue

end
-- ==== Proof.LibScatterColumn.lean ====
/-
  Two accumulating `stablehlo.scatter`s with the same scatter indices: a flat one and its column form.

  `X.at[idx].add(U)` for a flat array `X : [B]`, an integer vector `idx : [K]` and updates `U : [K]` lowers to a
  scatter whose scatter indices are the column `[K, 1]` (the index vector on axis 1, mapped to operand axis 0, operand
  axis 0 inserted, no update window axis). The same accumulation written on columns, `Xc : [B, 1]` and `Uc : [K, 1]`,
  lowers to the scatter with the same indices whose one update window axis is axis 1. Update `n` lands on operand
  element `idx[n, 0]` (read signed, dropped when outside the operand) in both: the column form's window coordinate on
  the extra axis is always `0`. So when the column arrays are the flat ones written as columns, entry `(b, 0)` of the
  column result is entry `b` of the flat result.
-/
import Idealize.ShloMosaic.Lib.ValueIdx
import Idealize.ShloMosaic.PureOps.Ideal

noncomputable section

open scoped BigOperators

namespace Idealize.ShloMosaic.ScatterColumn

open Idealize.ShloMosaic Idealize.ShloMosaic.ValueIdx

/-! ## Two facts about every scatter's dimension numbers -/

/-- An operand axis is kept exactly when it is not an inserted window axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- Update `j` lands on operand index `i` exactly when, on every operand axis, the start plus the window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h1 := congrFun (Option.some.inj h) a
      have h2 := congrArg Fin.val h1
      simp only at h2
      have h3 := hb a
      omega
    · exact absurd h (by simp)
  · intro h
    have hb : ∀ a, 0 ≤ d.start j idx a + (d.window j a : Int) ∧ d.start j idx a + (d.window j a : Int) < s.size a := by
      intro a
      have h1 := h a
      have h2 := (i a).isLt
      omega
    rw [dif_pos hb]
    congr 1
    funext a
    refine Fin.ext ?_
    have h1 := h a
    show (d.start j idx a + (d.window j a : Int)).toNat = (i a).val
    omega

/-! ## A rank-1 index set is its one coordinate range -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The flat scatter -/

/-- The dimension numbers of the flat scatter: operand `[B]`, scatter indices `[K, 1]`, updates `[K]`. -/
abbrev flatDims (B K : Nat) (wf : ScatterDims.WF ⟨1, ![B]⟩ ⟨2, ![K, 1]⟩ ⟨1, ![K]⟩ [] [0] [0] 1) :
    ScatterDims ⟨1, ![B]⟩ ⟨2, ![K, 1]⟩ ⟨1, ![K]⟩ where
  updateWindowDims := []
  insertedWindowDims := [0]
  scatterDimsToOperandDims := [0]
  indexVectorDim := 1
  wf := wf

/-- The flat scatter's start for update `n` is the scatter index `idx[n, 0]`, read signed. -/
theorem flat_start {B K w : Nat} (wf : ScatterDims.WF ⟨1, ![B]⟩ ⟨2, ![K, 1]⟩ ⟨1, ![K]⟩ [] [0] [0] 1)
    (idx : IVec ⟨2, ![K, 1]⟩ w) (n : Fin K) :
    (flatDims B K wf).start (ix1 n) idx (0 : Fin 1) = (idx (ix2 n (0 : Fin 1))).toInt := by
  unfold ScatterDims.start
  rw [dif_pos (show (0 : Fin 1) ∈ (flatDims B K wf).scatterDimsToOperandDims from List.mem_singleton.mpr rfl)]
  have hsi : (flatDims B K wf).siIdx (ix1 n) ⟨List.idxOf (0 : Fin 1) (flatDims B K wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- The flat scatter has no window: its one operand axis is inserted. -/
theorem flat_window {B K : Nat} (wf : ScatterDims.WF ⟨1, ![B]⟩ ⟨2, ![K, 1]⟩ ⟨1, ![K]⟩ [] [0] [0] 1) (n : Fin K) :
    (flatDims B K wf).window (ix1 n) (0 : Fin 1) = 0 := by
  unfold ScatterDims.window
  rw [dif_neg (fun h => (mem_sKept _ _).mp h (List.mem_singleton.mpr rfl))]

/-- Flat update `n` lands on operand element `b` exactly when the scatter index `idx[n, 0]`, read signed, is `b`. -/
theorem flat_lands_iff {B K w : Nat} (wf : ScatterDims.WF ⟨1, ![B]⟩ ⟨2, ![K, 1]⟩ ⟨1, ![K]⟩ [] [0] [0] 1)
    (idx : IVec ⟨2, ![K, 1]⟩ w) (n : Fin K) (b : Fin B) :
    (flatDims B K wf).resultIdx? (ix1 n) idx = some (ix1 b) ↔ (idx (ix2 n (0 : Fin 1))).toInt = (b.val : Int) := by
  rw [resultIdx?_eq_some_iff, Fin.forall_fin_one, flat_start, flat_window]
  show (idx (ix2 n (0 : Fin 1))).toInt + ((0 : Nat) : Int) = (b.val : Int) ↔ _
  rw [Int.natCast_zero, Int.add_zero]

/-! ## The column scatter -/

/-- The dimension numbers of the column scatter: operand `[B, 1]`, scatter indices `[K, 1]`, updates `[K, 1]`. -/
abbrev colDims (B K : Nat) (wf : ScatterDims.WF ⟨2, ![B, 1]⟩ ⟨2, ![K, 1]⟩ ⟨2, ![K, 1]⟩ [1] [0] [0] 1) :
    ScatterDims ⟨2, ![B, 1]⟩ ⟨2, ![K, 1]⟩ ⟨2, ![K, 1]⟩ where
  updateWindowDims := [1]
  insertedWindowDims := [0]
  scatterDimsToOperandDims := [0]
  indexVectorDim := 1
  wf := wf

/-- On the row axis the column scatter's start for update `(n, c)` is the scatter index `idx[n, 0]`, read signed. -/
theorem col_start_0 {B K w : Nat} (wf : ScatterDims.WF ⟨2, ![B, 1]⟩ ⟨2, ![K, 1]⟩ ⟨2, ![K, 1]⟩ [1] [0] [0] 1)
    (idx : IVec ⟨2, ![K, 1]⟩ w) (n : Fin K) (c : Fin 1) :
    (colDims B K wf).start (ix2 n c) idx (0 : Fin 2) = (idx (ix2 n (0 : Fin 1))).toInt := by
  unfold ScatterDims.start
  rw [dif_pos (show (0 : Fin 2) ∈ (colDims B K wf).scatterDimsToOperandDims from List.mem_singleton.mpr rfl)]
  have hsi : (colDims B K wf).siIdx (ix2 n c) ⟨List.idxOf (0 : Fin 2) (colDims B K wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- On the column axis the column scatter's start is `0`: the map does not name the axis. -/
theorem col_start_1 {B K w : Nat} (wf : ScatterDims.WF ⟨2, ![B, 1]⟩ ⟨2, ![K, 1]⟩ ⟨2, ![K, 1]⟩ [1] [0] [0] 1)
    (idx : IVec ⟨2, ![K, 1]⟩ w) (n : Fin K) (c : Fin 1) :
    (colDims B K wf).start (ix2 n c) idx (1 : Fin 2) = 0 := by
  unfold ScatterDims.start
  rw [dif_neg (show ¬ (1 : Fin 2) ∈ ([0] : List (Fin 2)) by decide)]

/-- On the row axis the column scatter has no window coordinate: the axis is inserted. -/
theorem col_window_0 {B K : Nat} (wf : ScatterDims.WF ⟨2, ![B, 1]⟩ ⟨2, ![K, 1]⟩ ⟨2, ![K, 1]⟩ [1] [0] [0] 1)
    (n : Fin K) (c : Fin 1) :
    (colDims B K wf).window (ix2 n c) (0 : Fin 2) = 0 := by
  unfold ScatterDims.window
  rw [dif_neg (fun h => (mem_sKept _ _).mp h (List.mem_singleton.mpr rfl))]

/-- On the column axis the column scatter's window coordinate is the update's column, which is `0`: the axis has
    extent one. -/
theorem col_window_1 {B K : Nat} (wf : ScatterDims.WF ⟨2, ![B, 1]⟩ ⟨2, ![K, 1]⟩ ⟨2, ![K, 1]⟩ [1] [0] [0] 1)
    (n : Fin K) (c : Fin 1) :
    (colDims B K wf).window (ix2 n c) (1 : Fin 2) = 0 := by
  have hk : (1 : Fin 2) ∈ (colDims B K wf).sKept :=
    (mem_sKept _ _).mpr (show ¬ (1 : Fin 2) ∈ ([0] : List (Fin 2)) by decide)
  unfold ScatterDims.window
  rw [dif_pos hk]
  show c.val = 0
  omega

/-- Column update `(n, c)` lands on operand element `(b, 0)` exactly when the scatter index `idx[n, 0]`, read signed,
    is `b`. -/
theorem col_lands_iff {B K w : Nat} (wf : ScatterDims.WF ⟨2, ![B, 1]⟩ ⟨2, ![K, 1]⟩ ⟨2, ![K, 1]⟩ [1] [0] [0] 1)
    (idx : IVec ⟨2, ![K, 1]⟩ w) (n : Fin K) (c : Fin 1) (b : Fin B) :
    (colDims B K wf).resultIdx? (ix2 n c) idx = some (ix2 b (0 : Fin 1))
      ↔ (idx (ix2 n (0 : Fin 1))).toInt = (b.val : Int) := by
  rw [resultIdx?_eq_some_iff, Fin.forall_fin_two, col_start_0, col_start_1, col_window_0, col_window_1]
  show ((idx (ix2 n (0 : Fin 1))).toInt + ((0 : Nat) : Int) = (b.val : Int)
      ∧ (0 : Int) + ((0 : Nat) : Int) = (((0 : Fin 1).val : Nat) : Int)) ↔ _
  constructor
  · rintro ⟨h, _⟩; omega
  · intro h; exact ⟨by omega, by simp⟩

/-! ## The two results agree -/

/-- THE COLUMN SCATTER IS THE FLAT ONE: with the same scatter indices, and the column operand and updates the flat ones
    written as columns, entry `(b, 0)` of the column result is entry `b` of the flat result. -/
theorem scatterAdd_col_eq_flat {B K w : Nat}
    (wff : ScatterDims.WF ⟨1, ![B]⟩ ⟨2, ![K, 1]⟩ ⟨1, ![K]⟩ [] [0] [0] 1)
    (wfc : ScatterDims.WF ⟨2, ![B, 1]⟩ ⟨2, ![K, 1]⟩ ⟨2, ![K, 1]⟩ [1] [0] [0] 1)
    (X : (⟨1, ![B]⟩ : Shape).Idx → EReal) (Xc : (⟨2, ![B, 1]⟩ : Shape).Idx → EReal)
    (hX : ∀ b : Fin B, Xc (ix2 b (0 : Fin 1)) = X (ix1 b))
    (idx : IVec ⟨2, ![K, 1]⟩ w)
    (U : (⟨1, ![K]⟩ : Shape).Idx → EReal) (Uc : (⟨2, ![K, 1]⟩ : Shape).Idx → EReal)
    (hU : ∀ n : Fin K, Uc (ix2 n (0 : Fin 1)) = U (ix1 n)) (b : Fin B) :
    Ideal.hostScatterAdd (colDims B K wfc) Xc idx Uc (ix2 b (0 : Fin 1))
      = Ideal.hostScatterAdd (flatDims B K wff) X idx U (ix1 b) := by
  unfold Ideal.hostScatterAdd
  rw [hX b]
  congr 1
  rw [Finset.sum_filter, Finset.sum_filter, sum_idx2, sum_idx1]
  refine Finset.sum_congr rfl (fun n _ => ?_)
  rw [Fin.sum_univ_one]
  exact if_congr ((col_lands_iff wfc idx n 0 b).trans (flat_lands_iff wff idx n b).symm) (hU n) rfl

/-- The same for the host operation as a program spells it, read at the exact extended reals. -/
theorem host_scatterAdd_col_eq_flat {B K w : Nat}
    (wff : ScatterDims.WF ⟨1, ![B]⟩ ⟨2, ![K, 1]⟩ ⟨1, ![K]⟩ [] [0] [0] 1)
    (wfc : ScatterDims.WF ⟨2, ![B, 1]⟩ ⟨2, ![K, 1]⟩ ⟨2, ![K, 1]⟩ [1] [0] [0] 1)
    (X : FVec Ideal ⟨1, ![B]⟩ .f32) (Xc : FVec Ideal ⟨2, ![B, 1]⟩ .f32)
    (hX : ∀ b : Fin B, Xc (ix2 b (0 : Fin 1)) = X (ix1 b))
    (idx : IVec ⟨2, ![K, 1]⟩ w)
    (U : FVec Ideal ⟨1, ![K]⟩ .f32) (Uc : FVec Ideal ⟨2, ![K, 1]⟩ .f32)
    (hU : ∀ n : Fin K, Uc (ix2 n (0 : Fin 1)) = U (ix1 n)) (b : Fin B) :
    Host.scatterAdd (colDims B K wfc) Xc idx Uc (ix2 b (0 : Fin 1))
      = Host.scatterAdd (flatDims B K wff) X idx U (ix1 b) :=
  scatterAdd_col_eq_flat wff wfc X Xc hX idx U Uc hU b

end Idealize.ShloMosaic.ScatterColumn

end
-- ==== Proof.LibGatherFlat.lean ====
/-
  A `stablehlo.gather` of single elements of a flat array, read at an index.

  `x[idx]` for a flat array `x : [N]` and an integer vector `idx : [K]` lowers to a gather whose start indices are the
  column `[K, 1]`, with no offset axis, collapsed operand axis 0, start index map `[0]`, the index vector on axis 1 and
  slices of one element, `[1]`. Entry `e` of the result is the operand's entry at the start index `idx[e, 0]` read as
  a signed integer and clamped into `[0, N - 1]`.
-/
import Idealize.ShloMosaic.Lib.ValueIdx

noncomputable section

namespace Idealize.ShloMosaic.GatherFlat

open Idealize.ShloMosaic Idealize.ShloMosaic.ValueIdx

/-- The dimension numbers of an element gather: operand `[N]`, start indices `[K, 1]`, result `[K]`. -/
abbrev flatDims (N K : Nat)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at the start index `idx[e, 0]`, read signed and clamped into
    `[0, N - 1]`. -/
theorem gather_flat_apply {α : Type} {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (flatDims N K wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N K wf).start (ix1 e) idx 0 + (flatDims N K wf).batchCoord (ix1 e) 0
      + (flatDims N K wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N K wf).startIndexMap from List.mem_singleton.mpr rfl)]
  have hsi : (flatDims N K wf).siIdx (ix1 e) ⟨List.idxOf (0 : Fin 1) (flatDims N K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherFlat

end
-- ==== Proof.LibGatherRows.lean ====
/-
  A `stablehlo.gather` of whole rows, read at an index.

  `x[idx]` for a matrix `x : [R, C]` and an integer vector `idx : [K]` lowers to a gather whose start indices are the
  column `[K, 1]`, with offset axis 1, collapsed operand axis 0, start index map `[0]`, the index vector on axis 1 and
  slices of one whole row, `[1, C]`. Entry `(e, j)` of the result is the operand's entry `(r e, j)`, where the row
  `r e` is the start index `idx[e, 0]` read as a signed integer and clamped into `[0, R - 1]`. The row depends on the
  start indices and on `e` alone: not on the operand and not on the column `j`. So gathering rows commutes with any
  map that acts on each row by itself.
-/
import Idealize.ShloMosaic.Lib.ValueIdx

noncomputable section

namespace Idealize.ShloMosaic.GatherRows

open Idealize.ShloMosaic Idealize.ShloMosaic.ValueIdx

/-- The dimension numbers of a row gather: operand `[R, C]`, start indices `[K, 1]`, result `[K, C]`. -/
abbrev rowsDims (R C K : Nat)
    (wf : GatherDims.WF ⟨2, ![R, C]⟩ ⟨2, ![K, 1]⟩ ⟨2, ![K, C]⟩ [1] [0] [] [0] [] 1 ![1, C]) :
    GatherDims ⟨2, ![R, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The row that result row `e` reads: the start index `idx[e, 0]`, signed, clamped into `[0, R - 1]`. -/
def rowOf {R K w : Nat} (hR : 0 < R) (idx : IVec ⟨2, ![K, 1]⟩ w) (e : Fin K) : Fin R :=
  ⟨min (idx (ix2 e (0 : Fin 1))).toInt.toNat (R - 1), by omega⟩

/-- On the row axis the operand index is the clamped start index: no batching coordinate, and no offset coordinate
    because the row axis is collapsed. -/
theorem operandIdx_rows_0 {R C K w : Nat} (hR : 0 < R)
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    ((rowsDims R C K wf).operandIdx (ix2 e j) idx (0 : Fin 2)).val = (rowOf hR idx e).val := by
  show (rowsDims R C K wf).start (ix2 e j) idx (0 : Fin 2) + (rowsDims R C K wf).batchCoord (ix2 e j) (0 : Fin 2)
      + (rowsDims R C K wf).offCoord (ix2 e j) (0 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims R C K wf).startIndexMap from List.mem_singleton.mpr rfl)]
  have hsi : (rowsDims R C K wf).siIdx (ix2 e j) ⟨List.idxOf (0 : Fin 2) (rowsDims R C K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index is the result's column: the start index map does not name the axis, and it is
    the one offset axis. -/
theorem operandIdx_rows_1 {R C K w : Nat}
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    ((rowsDims R C K wf).operandIdx (ix2 e j) idx (1 : Fin 2)).val = j.val := by
  show (rowsDims R C K wf).start (ix2 e j) idx (1 : Fin 2) + (rowsDims R C K wf).batchCoord (ix2 e j) (1 : Fin 2)
      + (rowsDims R C K wf).offCoord (ix2 e j) (1 : Fin 2) = _
  have hs : (rowsDims R C K wf).start (ix2 e j) idx (1 : Fin 2) = 0 := by
    unfold GatherDims.start
    rw [dif_neg (show ¬ (1 : Fin 2) ∈ ([0] : List (Fin 2)) by decide)]
  have hk : (1 : Fin 2) ∈ (rowsDims R C K wf).sKept :=
    (GatherDims.mem_sKept _ _).mpr ⟨(show ¬ (1 : Fin 2) ∈ ([0] : List (Fin 2)) by decide), List.not_mem_nil⟩
  rw [GatherDims.batchCoord_eq_zero _ _ _ List.not_mem_nil, Nat.add_zero, hs, Nat.zero_add]
  unfold GatherDims.offCoord
  rw [dif_pos hk]
  rfl

/-- The operand index of result entry `(e, j)` is `(rowOf e, j)`. -/
theorem operandIdx_rows {R C K w : Nat} (hR : 0 < R)
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    (rowsDims R C K wf).operandIdx (ix2 e j) idx = ix2 (rowOf hR idx e) j := by
  funext a
  refine Fin.ext ?_
  match a with
  | ⟨0, _⟩ => exact operandIdx_rows_0 hR wf idx e j
  | ⟨1, _⟩ => exact operandIdx_rows_1 wf idx e j

/-- THE ROW GATHER READ AT `(e, j)`: the operand's entry `(rowOf e, j)`. -/
theorem gather_rows_apply {α : Type} {R C K w : Nat} (hR : 0 < R)
    (wf : GatherDims.WF ⟨2, ![R, C]⟩ ⟨2, ![K, 1]⟩ ⟨2, ![K, C]⟩ [1] [0] [] [0] [] 1 ![1, C])
    (x : (⟨2, ![R, C]⟩ : Shape).Idx → α) (idx : IVec ⟨2, ![K, 1]⟩ w) (e : Fin K) (j : Fin C) :
    Host.gather (rowsDims R C K wf) x idx (ix2 e j) = x (ix2 (rowOf hR idx e) j) := by
  unfold Host.gather
  rw [operandIdx_rows hR wf idx e j]

/-- Gathering rows commutes with a map that acts row by row: if `y`'s entry `(r, j)` is `f` of `x`'s row `r` (and of
    `j`), then the gather of `y` at `(e, j)` is `f` of the gathered row `e` of `x`. -/
theorem gather_rows_rowwise {α β : Type} {R C K w : Nat} (hR : 0 < R)
    (wf : GatherDims.WF ⟨2, ![R, C]⟩ ⟨2, ![K, 1]⟩ ⟨2, ![K, C]⟩ [1] [0] [] [0] [] 1 ![1, C])
    (f : (Fin C → α) → Fin C → β) (x : (⟨2, ![R, C]⟩ : Shape).Idx → α) (y : (⟨2, ![R, C]⟩ : Shape).Idx → β)
    (hy : ∀ (r : Fin R) (j : Fin C), y (ix2 r j) = f (fun k => x (ix2 r k)) j)
    (idx : IVec ⟨2, ![K, 1]⟩ w) (e : Fin K) (j : Fin C) :
    Host.gather (rowsDims R C K wf) y idx (ix2 e j)
      = f (fun k => Host.gather (rowsDims R C K wf) x idx (ix2 e k)) j := by
  rw [gather_rows_apply hR wf y idx e j, hy]
  exact congrArg (fun g => f g j) (funext fun k => (gather_rows_apply hR wf x idx e k).symm)

end Idealize.ShloMosaic.GatherRows

end
-- ==== Proof.LibAtIndex.lean ====
/-
  Pointwise host operations read at an index of each side.

  A quotient (a product) of two arrays read at an index is the quotient (the product) of the entries there; so two such
  arrays — possibly of different shapes, each read at its own index — agree there as soon as their operands do.
  Stated over arbitrary shapes, so that a proof about large literal arrays can cite it without opening the arithmetic.
-/
import Idealize.ShloMosaic.PureOps.Ideal

noncomputable section

namespace Idealize.ShloMosaic.AtIndex

open Idealize.ShloMosaic

variable {s s' : Shape} {φ : FTy}

/-- Two host quotients, each read at its own index, agree when the numerators and the denominators read there do. -/
theorem hostDivf_congr (a c : FVec Ideal s φ) (a' c' : FVec Ideal s' φ) (i : s.Idx) (i' : s'.Idx)
    (ha : a i = a' i') (hc : c i = c' i') : Host.divf a c i = Host.divf a' c' i' := by
  show FloatOps.hostDivf (a i) (c i) = FloatOps.hostDivf (a' i') (c' i')
  rw [ha, hc]

/-- Two products, each read at its own index, agree when the factors read there do. -/
theorem mulf_congr (a c : FVec Ideal s φ) (a' c' : FVec Ideal s' φ) (i : s.Idx) (i' : s'.Idx)
    (ha : a i = a' i') (hc : c i = c' i') : mulf a c i = mulf a' c' i' := by
  show FloatOps.mulf (a i) (c i) = FloatOps.mulf (a' i') (c' i')
  rw [ha, hc]

/-- Two maxima, each read at its own index, agree when the operands read there do. -/
theorem maximumf_congr (a c : FVec Ideal s φ) (a' c' : FVec Ideal s' φ) (i : s.Idx) (i' : s'.Idx)
    (ha : a i = a' i') (hc : c i = c' i') : maximumf a c i = maximumf a' c' i' := by
  show FloatOps.maximumf (a i) (c i) = FloatOps.maximumf (a' i') (c' i')
  rw [ha, hc]

end Idealize.ShloMosaic.AtIndex

end
-- ==== Proof.RefValue.lean ====
/-
  The reference program's result is the same function of the six arguments as the kernel program's.

  Operation by operation the reference computes: the logits column by two whole matrix products (the same sums, row by
  row, as the kernel's blockwise products); the weights by the same shift-and-exponentiate; the segment means in the
  COLUMN layout — weights accumulated per segment into a `[1024, 1]` array, divided by the sizes written as a column,
  read back row by row — where the kernel program works on flat `[1024]` arrays; then the same re-weighting, entry by
  entry, and the same pooling. The only mathematics is that an accumulation of a column of updates into a column
  lands where the flat accumulation lands, and that reading a one-column matrix by rows reads the flat array.
-/
import proofs.«143662_j75952201662547_1_alg».proof.Proof.Gen.ReferenceIdeal.Read
import proofs.«143662_j75952201662547_1_alg».proof.Proof.Pooling
import proofs.«143662_j75952201662547_1_alg».proof.Proof.LibScatterColumn
import proofs.«143662_j75952201662547_1_alg».proof.Proof.LibGatherFlat
import proofs.«143662_j75952201662547_1_alg».proof.Proof.LibGatherRows
import proofs.«143662_j75952201662547_1_alg».proof.Proof.LibAtIndex

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read
open Cert.KernelIdeal.Pooling (weights counts readIdx meanFlat denom pooled result)
open Cert.KernelIdeal.Logits (logits logitAt)
open Cert.KernelIdeal.Reweigh (reweigh reweighAt)

/-! ## The logits -/

/-- The hidden layer of the reference at `(r, k)`: the first product, the bias row, the maximum with zero. -/
theorem hidden_at (x0 : (⟨S500000x256, .f32⟩ : BufTy).Contents (Elt Ideal)) (x2 : (⟨S256x128, .f32⟩ : BufTy).Contents (Elt Ideal)) (x3 : (⟨S128, .f32⟩ : BufTy).Contents (Elt Ideal)) (r : Fin 500000) (k : Fin 128) :
    val_main_v4 (F := Ideal) x0 x2 x3 (ix2 r k)
      = max ((∑ j : Fin 256, x0 (ix2 r j) * x2 (ix2 j k)) + x3 (ix1 k)) (Ideal.ofBits .f32 0x00000000#32) := by
  rw [val_main_v4_apply, val_main_v3_apply, val_main_v0_apply, val_main_v2_apply, val_main_v1_apply,
    val_main_call0_v0_apply, val_main_call0_cst_apply]
  have hl : ∀ j : Fin 256, lidx_main_v0 (ix2 r k) j = ix2 r j := fun j => funext fun a => Fin.ext (by
    match a with
    | ⟨0, _⟩ => rfl
    | ⟨1, _⟩ => rfl)
  have hr : ∀ j : Fin 256, ridx_main_v0 (ix2 r k) j = ix2 j k := fun j => funext fun a => Fin.ext (by
    match a with
    | ⟨0, _⟩ => rfl
    | ⟨1, _⟩ => rfl)
  have hb : idx_main_v1 (idx_main_v2 (ix2 r k)) = ix1 k := funext fun a => Fin.ext (by
    match a with
    | ⟨0, _⟩ => rfl)
  simp only [hl, hr, hb]
  rfl

/-- The reference's logits column is `logits` of the arguments. -/
theorem ref_logits (x0 : (⟨S500000x256, .f32⟩ : BufTy).Contents (Elt Ideal)) (x2 : (⟨S256x128, .f32⟩ : BufTy).Contents (Elt Ideal)) (x3 : (⟨S128, .f32⟩ : BufTy).Contents (Elt Ideal)) (x4 : (⟨S128x1, .f32⟩ : BufTy).Contents (Elt Ideal)) (x5 : (⟨S1, .f32⟩ : BufTy).Contents (Elt Ideal)) :
    val_main_v8 (F := Ideal) x0 x2 x3 x4 x5 = logits x0 x2 x3 x4 x5 := by
  funext i
  obtain ⟨r, u, rfl⟩ : ∃ (r : Fin 500000) (u : Fin 1), i = ix2 r u := ⟨i 0, i 1, eq_ix2 i⟩
  obtain rfl : u = 0 := Subsingleton.elim _ _
  rw [val_main_v8_apply, val_main_v5_apply, val_main_v7_apply, val_main_v6_apply]
  have hl : ∀ k : Fin 128, lidx_main_v5 (ix2 r (0 : Fin 1)) k = ix2 r k := fun k => funext fun a => Fin.ext (by
    match a with
    | ⟨0, _⟩ => rfl
    | ⟨1, _⟩ => rfl)
  have hr : ∀ k : Fin 128, ridx_main_v5 (ix2 r (0 : Fin 1)) k = ix2 k (0 : Fin 1) := fun k => funext fun a => Fin.ext (by
    match a with
    | ⟨0, _⟩ => rfl
    | ⟨1, _⟩ => rfl)
  have hb : idx_main_v6 (idx_main_v7 (ix2 r (0 : Fin 1))) = ix1 (0 : Fin 1) := funext fun a => Fin.ext (by
    match a with
    | ⟨0, _⟩ => rfl)
  simp only [hl, hr, hb, hidden_at]
  rfl

/-! ## The weights and the sizes: the same operations -/

theorem ref_weights (x0 : (⟨S500000x256, .f32⟩ : BufTy).Contents (Elt Ideal)) (x2 : (⟨S256x128, .f32⟩ : BufTy).Contents (Elt Ideal)) (x3 : (⟨S128, .f32⟩ : BufTy).Contents (Elt Ideal)) (x4 : (⟨S128x1, .f32⟩ : BufTy).Contents (Elt Ideal)) (x5 : (⟨S1, .f32⟩ : BufTy).Contents (Elt Ideal)) :
    val_main_v12 (F := Ideal) x0 x2 x3 x4 x5 = weights (val_main_v8 (F := Ideal) x0 x2 x3 x4 x5) := by
  unfold val_main_v12 val_main_v11 val_main_v10 val_main_v9 val_main_cst weights
  rfl

theorem ref_sizes (x1 : (⟨S500000, .i32⟩ : BufTy).Contents (Elt Ideal)) : val_main_v19 (F := Ideal) x1 = counts x1 := by
  unfold val_main_v19 val_main_v18 val_main_v17 val_main_v16 val_main_cst_1 val_main_cst_2 counts
  rfl

theorem ref_readIdx (x1 : (⟨S500000, .i32⟩ : BufTy).Contents (Elt Ideal)) : val_main_v29 (F := Ideal) x1 = readIdx x1 := by
  unfold val_main_v29 val_main_v28 val_main_v27 val_main_v26 val_main_v25 val_main_v24 val_main_c val_main_c_4 readIdx
  rfl

/-! ## The segment means: the column layout against the flat layout -/

section Means

variable (E : (⟨S500000x1, .f32⟩ : BufTy).Contents (Elt Ideal)) (I : (⟨S500000, .i32⟩ : BufTy).Contents (Elt Ideal))

/-- A column `[a, 1]` cast to the flat `[a]` reads, at `n`, the column's entry `(n, 0)`. -/
theorem flat_of_col {a : ℕ} (v : (⟨2, ![a, 1]⟩ : Shape).Idx → EReal)
    (h : (⟨2, ![a, 1]⟩ : Shape).ShapeCasts ⟨1, ![a]⟩) (n : Fin a) :
    shapeCast ⟨1, ![a]⟩ v h (ix1 n) = v (ix2 n (0 : Fin 1)) :=
  shapeCast_apply v h _ _ (by
    rw [Shape.rowMajor_val_two, Shape.rowMajor_val_one]
    show n.val * 1 + 0 = n.val
    omega)

/-- A flat `[a]` array written as the column `[a, 1]` reads, at `(r, 0)`, the array's entry `r`. -/
theorem col_of_flat {α : Type} {a : ℕ} (v : (⟨1, ![a]⟩ : Shape).Idx → α)
    (h : (⟨1, ![a]⟩ : Shape).BroadcastsInDim ⟨2, ![a, 1]⟩ ![0]) (r : Fin a) :
    broadcastInDim ⟨2, ![a, 1]⟩ ![0] h v (ix2 r (0 : Fin 1)) = v (ix1 r) := by
  refine broadcastInDim_apply ![0] h v (ix2 r (0 : Fin 1)) (ix1 r) fun ax => ?_
  match ax with
  | ⟨0, _⟩ =>
    show r.val = if a = 1 then 0 else r.val
    split
    · have := r.isLt; omega
    · rfl

/-- The reference's mean column at `(b, 0)` is the flat mean at `b`: the accumulated weights agree (the column
    accumulation lands where the flat one does) and so do the sizes. -/
theorem mean_col_flat (b : Fin 1024) :
    Host.divf (Host.scatterAdd scatter_S1024x1_S500000x1_S500000x1_1_0_0_1 (val_main_v13 (F := Ideal))
          (val_main_v14 (F := Ideal) I) E) (val_main_v22 (F := Ideal) I) (ix2 b (0 : Fin 1))
      = meanFlat E I (ix1 b) := by
  have hi : idx_main_v22 (ix2 b (0 : Fin 1)) = ix1 b := funext fun a => Fin.ext (by
    match a with
    | ⟨0, _⟩ => rfl)
  have hsz : val_main_v22 (F := Ideal) I (ix2 b (0 : Fin 1))
      = maximumf (counts I) (broadcastInDim Cert.KernelIdeal.S1024 ![] Cert.KernelIdeal.Facts₀.bcast_S_S1024
          (constant (F := Ideal) Cert.KernelIdeal.S_ .f32 0x3F800000#32)) (ix1 b) := by
    rw [val_main_v22_apply, hi]
    unfold val_main_v21 val_main_v20 val_main_cst_3
    rw [ref_sizes]
  unfold meanFlat
  exact AtIndex.hostDivf_congr _ _ _ _ _ _
    (ScatterColumn.host_scatterAdd_col_eq_flat (B := 1024) (K := 500000)
      Cert.KernelIdeal.Facts₀.scatter_S1024_S500000x1_S500000_n_0_0_1_wf
      Facts₀.scatter_S1024x1_S500000x1_S500000x1_1_0_0_1_wf
      (broadcastInDim Cert.KernelIdeal.S1024 ![] Cert.KernelIdeal.Facts₀.bcast_S_S1024
        (constant (F := Ideal) Cert.KernelIdeal.S_ .f32 0x00000000#32))
      (val_main_v13 (F := Ideal)) (fun _ => rfl) (val_main_v14 (F := Ideal) I)
      (shapeCast Cert.KernelIdeal.S500000 E Cert.KernelIdeal.Facts₀.shapeCasts_S500000x1_S500000) E
      (fun n => (flat_of_col E _ n).symm) b)
    hsz

/-- The row gather of the reference at `(r, 0)`: the operand's row named by the clamped id. -/
theorem gather_col_at (M : (⟨S1024x1, .f32⟩ : BufTy).Contents (Elt Ideal)) (idx : (⟨S500000x1, .i32⟩ : BufTy).Contents (Elt Ideal))
    (r : Fin 500000) :
    Host.gather gather_S1024x1_S500000x1_S500000x1_1_0_n_n_0_1_11 M idx (ix2 r (0 : Fin 1))
      = M (ix2 (⟨min (idx (ix2 r (0 : Fin 1))).toInt.toNat (1024 - 1), by omega⟩ : Fin 1024) (0 : Fin 1)) :=
  GatherRows.gather_rows_apply (R := 1024) (C := 1) (K := 500000) (by decide) _ M idx r (0 : Fin 1)

/-- The element gather of the kernel program at `r`: the operand's entry named by the clamped id. -/
theorem gather_flat_at (X : (⟨Cert.KernelIdeal.S1024, .f32⟩ : BufTy).Contents (Elt Ideal))
    (idx : (⟨Cert.KernelIdeal.S500000x1, .i32⟩ : BufTy).Contents (Elt Ideal)) (r : Fin 500000) :
    Host.gather Cert.KernelIdeal.gather_S1024_S500000x1_S500000_n_0_n_n_0_1_1 X idx (ix1 r)
      = X (ix1 (⟨min (idx (ix2 r (0 : Fin 1))).toInt.toNat (1024 - 1), by omega⟩ : Fin 1024)) :=
  GatherFlat.gather_flat_apply (N := 1024) (K := 500000) (by decide) _ X idx r

/-- The reference's normaliser at row `r` is the kernel program's. -/
theorem denom_at (r : Fin 500000) :
    mulf (Host.gather gather_S1024x1_S500000x1_S500000x1_1_0_n_n_0_1_11
        (Host.divf (Host.scatterAdd scatter_S1024x1_S500000x1_S500000x1_1_0_0_1 (val_main_v13 (F := Ideal))
          (val_main_v14 (F := Ideal) I) E) (val_main_v22 (F := Ideal) I))
        (val_main_v29 (F := Ideal) I)) (val_main_v31 (F := Ideal)) (ix2 r (0 : Fin 1))
      = denom E I (ix2 r (0 : Fin 1)) := by
  unfold denom
  rw [col_of_flat, ref_readIdx]
  exact AtIndex.mulf_congr _ _ _ _ _ _
    (((gather_col_at _ (readIdx I) r).trans (mean_col_flat E I _)).trans
      (gather_flat_at (meanFlat E I) (readIdx I) r).symm)
    rfl

end Means

theorem ref_denom (x0 : (⟨S500000x256, .f32⟩ : BufTy).Contents (Elt Ideal)) (x1 : (⟨S500000, .i32⟩ : BufTy).Contents (Elt Ideal)) (x2 : (⟨S256x128, .f32⟩ : BufTy).Contents (Elt Ideal)) (x3 : (⟨S128, .f32⟩ : BufTy).Contents (Elt Ideal)) (x4 : (⟨S128x1, .f32⟩ : BufTy).Contents (Elt Ideal)) (x5 : (⟨S1, .f32⟩ : BufTy).Contents (Elt Ideal)) (r : Fin 500000) :
    val_main_v32 (F := Ideal) x0 x1 x2 x3 x4 x5 (ix2 r (0 : Fin 1))
      = denom (val_main_v12 (F := Ideal) x0 x2 x3 x4 x5) x1 (ix2 r (0 : Fin 1)) := by
  unfold val_main_v32 val_main_v30 val_main_v23 val_main_v15
  exact denom_at _ x1 r

/-! ## The re-weighted matrix and the result -/

theorem ref_reweighed (x0 : (⟨S500000x256, .f32⟩ : BufTy).Contents (Elt Ideal)) (x1 : (⟨S500000, .i32⟩ : BufTy).Contents (Elt Ideal)) (x2 : (⟨S256x128, .f32⟩ : BufTy).Contents (Elt Ideal)) (x3 : (⟨S128, .f32⟩ : BufTy).Contents (Elt Ideal)) (x4 : (⟨S128x1, .f32⟩ : BufTy).Contents (Elt Ideal)) (x5 : (⟨S1, .f32⟩ : BufTy).Contents (Elt Ideal)) :
    val_main_v38 (F := Ideal) x0 x1 x2 x3 x4 x5
      = reweigh x0 (val_main_v12 (F := Ideal) x0 x2 x3 x4 x5) (denom (val_main_v12 (F := Ideal) x0 x2 x3 x4 x5) x1) := by
  funext i
  obtain ⟨r, q, rfl⟩ : ∃ (r : Fin 500000) (q : Fin 256), i = ix2 r q := ⟨i 0, i 1, eq_ix2 i⟩
  rw [val_main_v38_apply, val_main_v34_apply, val_main_v33_apply, val_main_v37_apply, val_main_v36_apply,
    val_main_v35_apply, val_main_cst_6_apply]
  have h33 : idx_main_v33 (ix2 r q) = ix2 r (0 : Fin 1) := funext fun a => Fin.ext (by
    match a with
    | ⟨0, _⟩ => rfl
    | ⟨1, _⟩ => rfl)
  have h37 : idx_main_v37 (ix2 r q) = ix2 r (0 : Fin 1) := funext fun a => Fin.ext (by
    match a with
    | ⟨0, _⟩ => rfl
    | ⟨1, _⟩ => rfl)
  rw [h33, h37, ref_denom]
  rfl

/-- THE REFERENCE'S RESULT: `Pooling.result` of the six arguments. -/
theorem ref_result (x0 : (⟨S500000x256, .f32⟩ : BufTy).Contents (Elt Ideal)) (x1 : (⟨S500000, .i32⟩ : BufTy).Contents (Elt Ideal)) (x2 : (⟨S256x128, .f32⟩ : BufTy).Contents (Elt Ideal)) (x3 : (⟨S128, .f32⟩ : BufTy).Contents (Elt Ideal)) (x4 : (⟨S128x1, .f32⟩ : BufTy).Contents (Elt Ideal)) (x5 : (⟨S1, .f32⟩ : BufTy).Contents (Elt Ideal)) :
    val_main_v50 (F := Ideal) x0 x1 x2 x3 x4 x5 = result x0 x1 x2 x3 x4 x5 := by
  unfold val_main_v50 val_main_v49 val_main_v48 val_main_v47 val_main_v46 val_main_cst_10 val_main_v45 val_main_v44
    val_main_v43 val_main_v42 val_main_cst_9 val_main_cst_8 val_main_v41 val_main_v40 val_main_v39 val_main_cst_7
  rw [ref_reweighed, ref_weights, ref_logits]
  unfold result pooled counts
  rfl

end Cert.ReferenceIdeal.RefValue

end
-- ==== Proof.lean ====
/-
  Attention pooling over segments: a two-kernel program against its plain reference, at the exact extended reals.

  Both programs compute, for 500000 rows `x r` with segment ids `I r`: the logit `L r = max (x r · W1 + b1) 0 · W2 + b2`,
  the weight `e r = exp (L r − max L)`, the normaliser `d r = 500000 · (mean of e over r's segment)`, the re-weighted row
  `y r = (e r · x r) / (d r + ε)`, and the pooled result: the rows `y r` summed per segment over `max (segment size, 1)`.
  The kernel program computes `L` and `y` in two kernels, a block of 5000 rows at a time, and the rest on flat arrays;
  the reference computes everything on whole arrays, the segment means as a one-column matrix.

  * the kernel program's result array is `Pooling.result` of the arguments (`KValue.result_eq`: the two regions' blocks
    tile their arrays, `Logits.final` and `Reweigh.final`; the host stretches are read operation by operation);
  * the reference's result is the same function (`RefValue.ref_result`: the matrix products are the same sums row by
    row, and accumulating or reading a one-column matrix is accumulating or reading the flat array);
  * no law of the extended reals beyond reordering finite sums is used, so the precondition is never opened.
  The ideal pass rewrote nothing: `preserves` has no conjunct.
-/
import proofs.«143662_j75952201662547_1_alg».proof.Defs
import proofs.«143662_j75952201662547_1_alg».proof.Proof.Gen.Kernel
import proofs.«143662_j75952201662547_1_alg».proof.Proof.Gen.Kernel.Frame
import proofs.«143662_j75952201662547_1_alg».proof.Proof.Gen.KernelIdeal
import proofs.«143662_j75952201662547_1_alg».proof.Proof.Gen.KernelIdeal.Frame
import proofs.«143662_j75952201662547_1_alg».proof.Proof.Gen.ReferenceIdeal
import proofs.«143662_j75952201662547_1_alg».proof.Proof.Gen.ReferenceIdeal.Run
import proofs.«143662_j75952201662547_1_alg».proof.Proof.Gen.ReferenceIdeal.Read
import proofs.«143662_j75952201662547_1_alg».proof.Proof.Gen.Pre_finite_inputs
import proofs.«143662_j75952201662547_1_alg».proof.Proof.KRun
import proofs.«143662_j75952201662547_1_alg».proof.Proof.KValue
import proofs.«143662_j75952201662547_1_alg».proof.Proof.RefValue

noncomputable section

namespace Cert.Proof

open Idealize.ShloMosaic Idealize.ShloMosaic.TcCoe Idealize.SL.Sem

/-- The kernel program's run with its result named: `Pooling.result` of the arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v34)
          = Cert.KernelIdeal.Pooling.result
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelIdeal.KValue.result_eq m ρ c), (h c).2⟩)
    (Cert.KernelIdeal.KRun.run_result (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- Both programs, run from memories that agree on the arguments, end with the result array at `Pooling.result` of
    the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.RefValue.ref_result,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
